-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S2x16x2048x2048 : Shape := ⟨4, ![2, 16, 2048, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn_part1 {F : FTy → Type} [FloatOps F] (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  main_v18

def fn {F : FTy → Type} [FloatOps F] (main_arg0 : FVec F S2x16x2048x128 .f32) (main_arg1 : FVec F S2x16x2048x128 .f32) (main_arg2 : FVec F S2x16x2048x128 .f32) (main_arg3 : FVec F S2x16x2048x2048 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_v13 main_v16
-- ==== Kernel.lean ====
abbrev S2x16x2048x128 : Shape := ⟨4, ![2, 16, 2048, 128]⟩
abbrev S2x16x2048x2048 : Shape := ⟨4, ![2, 16, 2048, 2048]⟩
abbrev S32x2048x128 : Shape := ⟨3, ![32, 2048, 128]⟩
abbrev S32x2048x2048 : Shape := ⟨3, ![32, 2048, 2048]⟩
abbrev S1x2048x128 : Shape := ⟨3, ![1, 2048, 128]⟩
abbrev S1x512x128 : Shape := ⟨3, ![1, 512, 128]⟩
abbrev S1x2048x512 : Shape := ⟨3, ![1, 2048, 512]⟩
abbrev S2048x128 : Shape := ⟨2, ![2048, 128]⟩
abbrev S512x128 : Shape := ⟨2, ![512, 128]⟩
abbrev S2048x512 : Shape := ⟨2, ![2048, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S32x2048x2048, .f32⟩
  | .hbm, ⟨8, _⟩ => ⟨S32x2048x128, .f32⟩
  | .hbm, ⟨9, _⟩ => ⟨S2x16x2048x128, .f32⟩
  | .local _ .vmem, ⟨0, _⟩ => ⟨S1x2048x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x128, .f32⟩
  | .local _ .vmem, ⟨8, _⟩ => ⟨S1x2048x128, .f32⟩
  | .local _ .vmem, ⟨9, _⟩ => ⟨S2048x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_17 : BitVec 32 := 0#32
  let v25 : BitVec 1 := Scalar.cmpi .ne v24 c0_i32_17
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x16x2048x128_S32x2048x128 : S2x16x2048x128.ShapeCasts S32x2048x128
  shapeCasts_S2x16x2048x2048_S32x2048x2048 : S2x16x2048x2048.ShapeCasts S32x2048x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x128_S1x2048x128 : S2048x128.ShapeCasts S1x2048x128
  shapeCasts_S32x2048x128_S2x16x2048x128 : S32x2048x128.ShapeCasts S2x16x2048x128
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S32x2048x128.size a
  hwx0_1 : ∀ i : grid0.Coords, EltTy.bits .f32 = 32 ∨ (Rect.block (s := S32x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S32x2048x128.size a
  hwx0_2 : ∀ i : grid0.Coords, EltTy.bits .f32 = 32 ∨ (Rect.block (s := S32x2048x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S32x2048x2048.size a
  hwx0_3 : ∀ i : grid0.Coords, EltTy.bits .f32 = 32 ∨ (Rect.block (s := S32x2048x2048) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S32x2048x128.size a
  hwx0_4 : ∀ i : grid0.Coords, EltTy.bits .f32 = 32 ∨ (Rect.block (s := S32x2048x128) S1x2048x128.size (cc0_transform_4 i) (hinb0_4 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v0) S1x2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S2x16x2048x2048, .f32⟩
  | .hbm, ⟨5, _⟩ => ⟨S2x16x2048x2048, .f32⟩
  | .hbm, ⟨6, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.SumBlocks.lean ====
/-
  A sum over 2048 terms, regrouped as four consecutive blocks of 512 terms each.

  The key axis of the attention product has 2048 positions; the kernel walks it in four blocks of 512 and adds the
  blocks' contributions one after the other onto an accumulator that starts at zero.  Addition of extended reals is
  commutative and associative (an `AddCommMonoid`), so the regrouping holds with no finiteness assumption.
-/
import Mathlib

namespace Cert.AttnDrop

open scoped BigOperators

/-- Position `r` of key block `j`, as a position of the whole key axis: `512 * j + r`. -/
def keyPos (j : Fin 4) (r : Fin 512) : Fin 2048 := ⟨512 * j.val + r.val, by omega⟩

@[simp] theorem keyPos_val (j : Fin 4) (r : Fin 512) : (keyPos j r).val = 512 * j.val + r.val := rfl

/-- A sum over the whole key axis is the sum, over the four blocks, of the sums inside each block. -/
theorem sum_keyPos {M : Type*} [AddCommMonoid M] (f : Fin 2048 → M) :
    ∑ t : Fin 2048, f t = ∑ j : Fin 4, ∑ r : Fin 512, f (keyPos j r) := by
  rw [← Fintype.sum_prod_type' (fun j r => f (keyPos j r))]
  refine (Fintype.sum_equiv (finProdFinEquiv (m := 4) (n := 512)) _ _ (fun p => ?_)).symm
  refine congrArg f (Fin.ext ?_)
  obtain ⟨j, r⟩ := p
  show 512 * j.val + r.val = r.val + 512 * j.val
  omega

/-- Four blocks added one after the other onto zero are the sum of the four blocks. -/
theorem acc_four {M : Type*} [AddCommMonoid M] (P : Fin 4 → M) :
    (((0 + P 0) + P 1) + P 2) + P 3 = ∑ j : Fin 4, P j := by
  rw [Fin.sum_univ_four, zero_add]

end Cert.AttnDrop
-- ==== Proof.Pieces.lean ====
/-
  What each control case of the body leaves behind, as a value.

  The body has three control cases along the key-block axis.  At the FIRST key block it zeroes the accumulator and then
  adds the block's contribution; at a MIDDLE block it adds the contribution onto what the previous point left; at the
  LAST block it does the same and then copies the accumulator into the output block.  Every store covers its whole
  buffer, so what a buffer ends up holding is the last store's payload, and a load that follows a covering store reads
  that store's payload back.  Hence

    first block :  accumulator = step(blocks, zero)
    middle block:  accumulator = step(blocks, previous accumulator)
    last block  :  accumulator = step(blocks, previous accumulator),   output block = that accumulator

  where `step` is the body's one arithmetic payload (`k0_pay2`), `zero` the stored zero block (`k0_pay1`), and the
  output block carries a leading unit axis (`k0_pay3`).  These hold for any float instance.
-/
import proofs.«114889_j39676907887182_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The all-zero offset of a rank-2 store or load. -/
theorem hz2 : (![0, 0] : Fin 2 → Nat) = fun _ => 0 := funext fun a => by fin_cases a <;> rfl
/-- The all-zero offset of a rank-3 store or load. -/
theorem hz3 : (![0, 0, 0] : Fin 3 → Nat) = fun _ => 0 := funext fun a => by fin_cases a <;> rfl

/-- A middle key block: the accumulator ends at the step applied to what the previous point left. -/
theorem acc_B (c : Dev nD) (i : grid0.Coords) (arg2 : Memref sig .tc .vmem S1x2048x128 .f32) (harg2 : arg2.IsWhole)
    (arg3 : Memref sig .tc .vmem S1x512x128 .f32) (harg3 : arg3.IsWhole) (arg4 : Memref sig .tc .vmem S1x512x128 .f32) (harg4 : arg4.IsWhole)
    (arg5 : Memref sig .tc .vmem S1x2048x512 .f32) (harg5 : arg5.IsWhole) (arg6 : Memref sig .tc .vmem S1x2048x128 .f32) (harg6 : arg6.IsWhole)
    (arg7 : Memref sig .tc .vmem S2048x128 .f32) (harg7 : arg7.IsWhole) (hc0 : ¬cond0_0 i) (hc1 : ¬cond0_1 i)
    (x0 : Vec F S1x2048x128 .f32) (x1 : Vec F S1x512x128 .f32) (x2 : Vec F S1x512x128 .f32) (x3 : Vec F S1x2048x512 .f32) (xs0 : Vec F S2048x128 .f32) :
    sout0_B_0 c i arg2 harg2 arg3 harg3 arg4 harg4 arg5 harg5 arg6 harg6 arg7 harg7 hc0 hc1 x0 x1 x2 x3 xs0 = k0_pay2 x0 x1 x3 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg4.read_unread, harg5.read_unread, harg7.read_unread,
    View.ld_unit_zero (S := S1x2048x128) hz3, View.ld_unit_zero (S := S1x512x128) hz3, View.ld_unit_zero (S := S1x2048x512) hz3,
    View.ld_unit_zero (S := S2048x128) hz2]

/-- The last key block: the accumulator, likewise. -/
theorem acc_C (c : Dev nD) (i : grid0.Coords) (arg2 : Memref sig .tc .vmem S1x2048x128 .f32) (harg2 : arg2.IsWhole)
    (arg3 : Memref sig .tc .vmem S1x512x128 .f32) (harg3 : arg3.IsWhole) (arg4 : Memref sig .tc .vmem S1x512x128 .f32) (harg4 : arg4.IsWhole)
    (arg5 : Memref sig .tc .vmem S1x2048x512 .f32) (harg5 : arg5.IsWhole) (arg6 : Memref sig .tc .vmem S1x2048x128 .f32) (harg6 : arg6.IsWhole)
    (arg7 : Memref sig .tc .vmem S2048x128 .f32) (harg7 : arg7.IsWhole) (hc0 : ¬cond0_0 i) (hc1 : cond0_1 i)
    (x0 : Vec F S1x2048x128 .f32) (x1 : Vec F S1x512x128 .f32) (x2 : Vec F S1x512x128 .f32) (x3 : Vec F S1x2048x512 .f32) (xs0 : Vec F S2048x128 .f32) :
    sout0_C_0 c i arg2 harg2 arg3 harg3 arg4 harg4 arg5 harg5 arg6 harg6 arg7 harg7 hc0 hc1 x0 x1 x2 x3 xs0 = k0_pay2 x0 x1 x3 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x2048x128) hz3, View.ld_unit_zero (S := S1x512x128) hz3, View.ld_unit_zero (S := S1x2048x512) hz3,
    View.ld_unit_zero (S := S2048x128) hz2]

/-- The first key block: the zero block is stored and read back, so the accumulator ends at the step applied to zero. -/
theorem acc_A (c : Dev nD) (i : grid0.Coords) (arg2 : Memref sig .tc .vmem S1x2048x128 .f32) (harg2 : arg2.IsWhole)
    (arg3 : Memref sig .tc .vmem S1x512x128 .f32) (harg3 : arg3.IsWhole) (arg4 : Memref sig .tc .vmem S1x512x128 .f32) (harg4 : arg4.IsWhole)
    (arg5 : Memref sig .tc .vmem S1x2048x512 .f32) (harg5 : arg5.IsWhole) (arg6 : Memref sig .tc .vmem S1x2048x128 .f32) (harg6 : arg6.IsWhole)
    (arg7 : Memref sig .tc .vmem S2048x128 .f32) (harg7 : arg7.IsWhole) (hc0 : cond0_0 i) (hc1 : ¬cond0_1 i)
    (x0 : Vec F S1x2048x128 .f32) (x1 : Vec F S1x512x128 .f32) (x2 : Vec F S1x512x128 .f32) (x3 : Vec F S1x2048x512 .f32) :
    sout0_A_0 c i arg2 harg2 arg3 harg3 arg4 harg4 arg5 harg5 arg6 harg6 arg7 harg7 hc0 hc1 x0 x1 x2 x3 = k0_pay2 x0 x1 x3 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x128) hz2, View.readCov_unit_zero (S := S2048x128) _ hz2]
  simp only [View.readAt_eq_ld, harg2.read_unread, harg3.read_unread, harg4.read_unread, harg5.read_unread, harg7.read_unread,
    View.ld_unit_zero (S := S1x2048x128) hz3, View.ld_unit_zero (S := S1x512x128) hz3, View.ld_unit_zero (S := S1x2048x512) hz3,
    View.ld_unit_zero (S := S2048x128) hz2]

/-- The last key block: the output block is the accumulator just stored, read back, with a leading unit axis. -/
theorem out_C (c : Dev nD) (i : grid0.Coords) (arg2 : Memref sig .tc .vmem S1x2048x128 .f32) (harg2 : arg2.IsWhole)
    (arg3 : Memref sig .tc .vmem S1x512x128 .f32) (harg3 : arg3.IsWhole) (arg4 : Memref sig .tc .vmem S1x512x128 .f32) (harg4 : arg4.IsWhole)
    (arg5 : Memref sig .tc .vmem S1x2048x512 .f32) (harg5 : arg5.IsWhole) (arg6 : Memref sig .tc .vmem S1x2048x128 .f32) (harg6 : arg6.IsWhole)
    (arg7 : Memref sig .tc .vmem S2048x128 .f32) (harg7 : arg7.IsWhole) (hc0 : ¬cond0_0 i) (hc1 : cond0_1 i)
    (x0 : Vec F S1x2048x128 .f32) (x1 : Vec F S1x512x128 .f32) (x2 : Vec F S1x512x128 .f32) (x3 : Vec F S1x2048x512 .f32) (xs0 : Vec F S2048x128 .f32) :
    out0_C_4 c i arg2 harg2 arg3 harg3 arg4 harg4 arg5 harg5 arg6 harg6 arg7 harg7 hc0 hc1 x0 x1 x2 x3 xs0 = k0_pay3 (k0_pay2 x0 x1 x3 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S2048x128) _ hz2]
  simp only [View.readAt_eq_ld, harg2.read_unread, harg3.read_unread, harg4.read_unread, harg5.read_unread, harg7.read_unread,
    View.ld_unit_zero (S := S1x2048x128) hz3, View.ld_unit_zero (S := S1x512x128) hz3, View.ld_unit_zero (S := S1x2048x512) hz3,
    View.ld_unit_zero (S := S2048x128) hz2]

end Cert.KernelIdeal.Pieces

end
-- ==== Proof.BlockTerm.lean ====
/-
  The kernel body's arithmetic, read entry by entry over the extended reals.

  At a grid point the body holds one batch-head's query block `q` (2048 × 128), one key block `k` and one value block
  `v` (512 × 128 each) and the matching mask block `w` (2048 × 512).  It forms the scores `q kᵀ` (2048 × 512), multiplies
  them entrywise by the mask, multiplies the result by `v`, and adds that onto the accumulator.  Over the extended reals
  a change of float format is the identity and a matrix product into a zero accumulator is the plain sum of products, so
  entry `(s, d)` of what the body stores is

      acc (s, d) + ∑ r < 512, ((∑ e < 128, q (s, e) · k (r, e)) · w (s, r)) · v (r, d).
-/
import proofs.«114889_j39676907887182_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- One key block's contribution to entry `(s, d)` of the output: the masked scores of query row `s` against the block's
    512 keys, times the block's values in column `d`. -/
def blockTerm (q : Vec Ideal S1x2048x128 .f32) (k : Vec Ideal S1x512x128 .f32) (w : Vec Ideal S1x2048x512 .f32)
    (v : Vec Ideal S1x512x128 .f32) (s : Fin 2048) (d : Fin 128) : EReal :=
  ∑ r : Fin 512, ((∑ e : Fin 128, q (ix3 (0 : Fin 1) s e) * k (ix3 (0 : Fin 1) r e)) * w (ix3 (0 : Fin 1) s r))
    * v (ix3 (0 : Fin 1) r d)

/-! ### Which operand entries an output entry of each product reads

For the scores both operands are contracted along their feature axis, so entry `(s, r)` reads row `s` of the left operand
and row `r` of the right one.  For the product with the values the left operand is contracted along its key axis and the
right along its row axis, so entry `(s, d)` reads row `s` of the left operand and column `d` of the right one. -/

theorem scores_lhs0 (j : S2048x512.Idx) (q : dot_S2048x128_S512x128_S2048x512_1_1_0_0_n_n.contr.Idx) : (dot_S2048x128_S512x128_S2048x512_1_1_0_0_n_n.lhsIdx j q 0).val = (j 0).val := by
  unfold DotDims.lhsIdx
  rw [dif_neg (show ¬(0 : Fin S2048x128.rank) ∈ dot_S2048x128_S512x128_S2048x512_1_1_0_0_n_n.lhsBatch by decide),
    dif_pos (show (0 : Fin S2048x128.rank) ∈ dot_S2048x128_S512x128_S2048x512_1_1_0_0_n_n.lhsNonContracting by decide)]
  rfl
theorem scores_lhs1 (j : S2048x512.Idx) (q : dot_S2048x128_S512x128_S2048x512_1_1_0_0_n_n.contr.Idx) : (dot_S2048x128_S512x128_S2048x512_1_1_0_0_n_n.lhsIdx j q 1).val = (q ⟨0, by decide⟩).val :=
  dot_S2048x128_S512x128_S2048x512_1_1_0_0_n_n.lhsIdx_val_of_single rfl j q
theorem scores_rhs0 (j : S2048x512.Idx) (q : dot_S2048x128_S512x128_S2048x512_1_1_0_0_n_n.contr.Idx) : (dot_S2048x128_S512x128_S2048x512_1_1_0_0_n_n.rhsIdx j q 0).val = (j 1).val := by
  unfold DotDims.rhsIdx
  rw [dif_neg (show ¬(0 : Fin S512x128.rank) ∈ dot_S2048x128_S512x128_S2048x512_1_1_0_0_n_n.rhsBatch by decide),
    dif_pos (show (0 : Fin S512x128.rank) ∈ dot_S2048x128_S512x128_S2048x512_1_1_0_0_n_n.rhsNonContracting by decide)]
  rfl
theorem scores_rhs1 (j : S2048x512.Idx) (q : dot_S2048x128_S512x128_S2048x512_1_1_0_0_n_n.contr.Idx) : (dot_S2048x128_S512x128_S2048x512_1_1_0_0_n_n.rhsIdx j q 1).val = (q ⟨0, by decide⟩).val :=
  dot_S2048x128_S512x128_S2048x512_1_1_0_0_n_n.rhsIdx_val_of_single rfl j q

theorem weighted_lhs0 (j : S2048x128.Idx) (q : dot_S2048x512_S512x128_S2048x128_1_0_0_1_n_n.contr.Idx) : (dot_S2048x512_S512x128_S2048x128_1_0_0_1_n_n.lhsIdx j q 0).val = (j 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl
theorem weighted_lhs1 (j : S2048x128.Idx) (q : dot_S2048x512_S512x128_S2048x128_1_0_0_1_n_n.contr.Idx) : (dot_S2048x512_S512x128_S2048x128_1_0_0_1_n_n.lhsIdx j q 1).val = (q ⟨0, by decide⟩).val :=
  dot_S2048x512_S512x128_S2048x128_1_0_0_1_n_n.lhsIdx_val_of_single rfl j q
theorem weighted_rhs0 (j : S2048x128.Idx) (q : dot_S2048x512_S512x128_S2048x128_1_0_0_1_n_n.contr.Idx) : (dot_S2048x512_S512x128_S2048x128_1_0_0_1_n_n.rhsIdx j q 0).val = (q ⟨0, by decide⟩).val :=
  dot_S2048x512_S512x128_S2048x128_1_0_0_1_n_n.rhsIdx_val_of_single rfl j q
theorem weighted_rhs1 (j : S2048x128.Idx) (q : dot_S2048x512_S512x128_S2048x128_1_0_0_1_n_n.contr.Idx) : (dot_S2048x512_S512x128_S2048x128_1_0_0_1_n_n.rhsIdx j q 1).val = (j 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- The scores: entry `(s, r)` of `a bᵀ` is the sum over the 128 features of `a (s, e) · b (r, e)` (both operands are
    contracted along their second axis). -/
theorem scores_apply (a : FVec Ideal S2048x128 .bf16) (b : FVec Ideal S512x128 .bf16) (s : Fin 2048) (r : Fin 512) :
    matmul dot_S2048x128_S512x128_S2048x512_1_1_0_0_n_n none a b (constant S2048x512 .f32 0x00000000#32) (ix2 s r)
      = ∑ e : Fin 128, a (ix2 s e) * b (ix2 r e) := by
  refine (Ideal.matmul_constant_zero_apply dot_S2048x128_S512x128_S2048x512_1_1_0_0_n_n none a b (ix2 s r)).trans ?_
  rw [← Equiv.sum_comp (contrEquiv1 dot_S2048x128_S512x128_S2048x512_1_1_0_0_n_n 128 rfl rfl).symm]
  refine Finset.sum_congr rfl fun e _ => ?_
  have hk := contrEquiv1_symm_val dot_S2048x128_S512x128_S2048x512_1_1_0_0_n_n 128 rfl rfl e
  have el : dot_S2048x128_S512x128_S2048x512_1_1_0_0_n_n.lhsIdx (ix2 s r) ((contrEquiv1 dot_S2048x128_S512x128_S2048x512_1_1_0_0_n_n 128 rfl rfl).symm e) = ix2 s e :=
    funext fun c => Fin.ext (by
      match c with
      | ⟨0, _⟩ => exact scores_lhs0 _ _
      | ⟨1, _⟩ => exact (scores_lhs1 _ _).trans hk)
  have er : dot_S2048x128_S512x128_S2048x512_1_1_0_0_n_n.rhsIdx (ix2 s r) ((contrEquiv1 dot_S2048x128_S512x128_S2048x512_1_1_0_0_n_n 128 rfl rfl).symm e) = ix2 r e :=
    funext fun c => Fin.ext (by
      match c with
      | ⟨0, _⟩ => exact scores_rhs0 _ _
      | ⟨1, _⟩ => exact (scores_rhs1 _ _).trans hk)
  rw [el, er]

/-- The product with the values: entry `(s, d)` of `p b` is the sum over the block's 512 keys of `p (s, r) · b (r, d)`. -/
theorem weighted_apply (p : FVec Ideal S2048x512 .bf16) (b : FVec Ideal S512x128 .bf16) (s : Fin 2048) (d : Fin 128) :
    matmul dot_S2048x512_S512x128_S2048x128_1_0_0_1_n_n none p b (constant S2048x128 .f32 0x00000000#32) (ix2 s d)
      = ∑ r : Fin 512, p (ix2 s r) * b (ix2 r d) := by
  refine (Ideal.matmul_constant_zero_apply dot_S2048x512_S512x128_S2048x128_1_0_0_1_n_n none p b (ix2 s d)).trans ?_
  rw [← Equiv.sum_comp (contrEquiv1 dot_S2048x512_S512x128_S2048x128_1_0_0_1_n_n 512 rfl rfl).symm]
  refine Finset.sum_congr rfl fun r _ => ?_
  have hk := contrEquiv1_symm_val dot_S2048x512_S512x128_S2048x128_1_0_0_1_n_n 512 rfl rfl r
  have el : dot_S2048x512_S512x128_S2048x128_1_0_0_1_n_n.lhsIdx (ix2 s d) ((contrEquiv1 dot_S2048x512_S512x128_S2048x128_1_0_0_1_n_n 512 rfl rfl).symm r) = ix2 s r :=
    funext fun c => Fin.ext (by
      match c with
      | ⟨0, _⟩ => exact weighted_lhs0 _ _
      | ⟨1, _⟩ => exact (weighted_lhs1 _ _).trans hk)
  have er : dot_S2048x512_S512x128_S2048x128_1_0_0_1_n_n.rhsIdx (ix2 s d) ((contrEquiv1 dot_S2048x512_S512x128_S2048x128_1_0_0_1_n_n 512 rfl rfl).symm r) = ix2 r d :=
    funext fun c => Fin.ext (by
      match c with
      | ⟨0, _⟩ => exact (weighted_rhs0 _ _).trans hk
      | ⟨1, _⟩ => exact weighted_rhs1 _ _)
  rw [el, er]

/-- What the body stores into the accumulator, at entry `(s, d)`: the accumulator's entry plus the block's contribution. -/
theorem pay2_apply (q : Vec Ideal S1x2048x128 .f32) (k : Vec Ideal S1x512x128 .f32) (w : Vec Ideal S1x2048x512 .f32)
    (v : Vec Ideal S1x512x128 .f32) (acc : Vec Ideal S2048x128 .f32) (s : Fin 2048) (d : Fin 128) :
    k0_pay2 (F := Ideal) q k w v acc (ix2 s d) = acc (ix2 s d) + blockTerm q k w v s d := by
  unfold k0_pay2 blockTerm
  rw [shapeCast_self, addf_apply, weighted_apply]
  refine congrArg (acc (ix2 s d) + ·) (Finset.sum_congr rfl fun r _ => ?_)
  rw [truncf_apply, mulf_apply, scores_apply, truncf_apply, shapeCast_1ab_ab_apply, shapeCast_1ab_ab_apply]
  refine congrArg₂ (· * ·) (congrArg (· * _) (Finset.sum_congr rfl fun e _ => ?_)) ?_
  · rw [truncf_apply, truncf_apply, shapeCast_1ab_ab_apply, shapeCast_1ab_ab_apply]
  · rfl

/-- The zero block the first key block's point stores before accumulating: every entry is the real number zero. -/
theorem pay1_apply (j : S2048x128.Idx) : k0_pay1 (F := Ideal) j = 0 := by
  unfold k0_pay1
  rw [shapeCast_self]
  show Ideal.ofBits .f32 0x00000000#32 = 0
  exact Ideal.ofBits_zero_f32

/-- What the last key block's point stores into the output block: the accumulator, with a leading axis of extent one. -/
theorem pay3_apply (acc : Vec Ideal S2048x128 .f32) (s : Fin 2048) (d : Fin 128) :
    k0_pay3 (F := Ideal) acc (ix3 (0 : Fin 1) s d) = acc (ix2 s d) := by
  unfold k0_pay3
  exact shapeCast_ab_1ab_apply _ _ _ _ _

end Cert.KernelIdeal.BlockValue

end
-- ==== Proof.Blocks.lean ====
/-
  What the kernel's windows read, as entries of the flattened arrays, and the flattened arrays as reshapes of the arguments.

  Grid point `t` (of 128, the key-block axis innermost) works on batch-head `g = t / 4` and key block `j = t % 4`.
  The query window's block there is rows `(g, ·, ·)` of the flattened query array; the key and value windows' blocks are
  rows `(g, 512 j + ·, ·)`; the mask window's block is `(g, ·, 512 j + ·)`.  A block's entry `(0, a, b)` therefore reads
  the array at (block index × block extent + offset) along each axis.

  The flattened arrays are the host's reshapes of the four arguments from (2, 16, …) to (32, …): entry `(g, a, b)`
  with `g = 16 p + h` is the argument's entry `(p, h, a, b)` — the same row-major position.
-/
import proofs.«114889_j39676907887182_2_alg».proof.Proof.Gen.KernelIdeal.Frame.Runs
import proofs.«114889_j39676907887182_2_alg».proof.Proof.SumBlocks
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx Cert.AttnDrop

variable {F : FTy → Type} [FloatOps F]
variable (m : (ℓ : Loc nD τ sig) → Buf (Elt F) ℓ)

/-- The batch-head a grid point works on. -/
def headOf (t : Fin cfg0.N) : Fin 32 := ⟨t.val / 4, by have := t.isLt; have hN : cfg0.N = 128 := N_0; omega⟩
/-- The key block a grid point works on. -/
def blockOf (t : Fin cfg0.N) : Fin 4 := ⟨t.val % 4, Nat.mod_lt _ (by decide)⟩

@[simp] theorem headOf_val (t : Fin cfg0.N) : (headOf t).val = t.val / 4 := rfl
@[simp] theorem blockOf_val (t : Fin cfg0.N) : (blockOf t).val = t.val % 4 := rfl

/-! ### The windows' block indices at a point, decided once over the grid -/

theorem index_q : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem index_k : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem index_v : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem index_w : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)
theorem index_o : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

/-! ### A block's entry is an entry of the flattened array -/

/-- The query block at `t`: entry `(0, s, e)` is the flattened query array at `(g, s, e)`. -/
theorem iblk_q (c : Dev nD) (t : Fin cfg0.N) (s : Fin 2048) (e : Fin 128) :
    (iblk m c 0 t : Vec F S1x2048x128 .f32) (ix3 (0 : Fin 1) s e)
      = (V m c main_v0 : S32x2048x128.Idx → Elt F .f32) (ix3 (headOf t) s e) := by
  unfold iblk
  rw [View.read_apply]
  show V m c main_v0 _ = V m c main_v0 _
  congr 1
  funext a
  apply Fin.ext
  match a with
  | ⟨0, _⟩ => show win0_0.index t 0 * 1 + 1 * 0 = t.val / 4; rw [(index_q t).1]; omega
  | ⟨1, _⟩ => show win0_0.index t 1 * 2048 + 1 * s.val = s.val; rw [(index_q t).2.1]; omega
  | ⟨2, _⟩ => show win0_0.index t 2 * 128 + 1 * e.val = e.val; rw [(index_q t).2.2]; omega

/-- The key block at `t`: entry `(0, r, e)` is the flattened key array at `(g, 512 j + r, e)`. -/
theorem iblk_k (c : Dev nD) (t : Fin cfg0.N) (r : Fin 512) (e : Fin 128) :
    (iblk m c 1 t : Vec F S1x512x128 .f32) (ix3 (0 : Fin 1) r e)
      = (V m c main_v1 : S32x2048x128.Idx → Elt F .f32) (ix3 (headOf t) (keyPos (blockOf t) r) e) := by
  unfold iblk
  rw [View.read_apply]
  show V m c main_v1 _ = V m c main_v1 _
  congr 1
  funext a
  apply Fin.ext
  match a with
  | ⟨0, _⟩ => show win0_1.index t 0 * 1 + 1 * 0 = t.val / 4; rw [(index_k t).1]; omega
  | ⟨1, _⟩ => show win0_1.index t 1 * 512 + 1 * r.val = 512 * (t.val % 4) + r.val; rw [(index_k t).2.1]; omega
  | ⟨2, _⟩ => show win0_1.index t 2 * 128 + 1 * e.val = e.val; rw [(index_k t).2.2]; omega

/-- The value block at `t`: entry `(0, r, d)` is the flattened value array at `(g, 512 j + r, d)`. -/
theorem iblk_v (c : Dev nD) (t : Fin cfg0.N) (r : Fin 512) (d : Fin 128) :
    (iblk m c 2 t : Vec F S1x512x128 .f32) (ix3 (0 : Fin 1) r d)
      = (V m c main_v2 : S32x2048x128.Idx → Elt F .f32) (ix3 (headOf t) (keyPos (blockOf t) r) d) := by
  unfold iblk
  rw [View.read_apply]
  show V m c main_v2 _ = V m c main_v2 _
  congr 1
  funext a
  apply Fin.ext
  match a with
  | ⟨0, _⟩ => show win0_2.index t 0 * 1 + 1 * 0 = t.val / 4; rw [(index_v t).1]; omega
  | ⟨1, _⟩ => show win0_2.index t 1 * 512 + 1 * r.val = 512 * (t.val % 4) + r.val; rw [(index_v t).2.1]; omega
  | ⟨2, _⟩ => show win0_2.index t 2 * 128 + 1 * d.val = d.val; rw [(index_v t).2.2]; omega

/-- The mask block at `t`: entry `(0, s, r)` is the flattened mask array at `(g, s, 512 j + r)`. -/
theorem iblk_w (c : Dev nD) (t : Fin cfg0.N) (s : Fin 2048) (r : Fin 512) :
    (iblk m c 3 t : Vec F S1x2048x512 .f32) (ix3 (0 : Fin 1) s r)
      = (V m c main_v3 : S32x2048x2048.Idx → Elt F .f32) (ix3 (headOf t) s (keyPos (blockOf t) r)) := by
  unfold iblk
  rw [View.read_apply]
  show V m c main_v3 _ = V m c main_v3 _
  congr 1
  funext a
  apply Fin.ext
  match a with
  | ⟨0, _⟩ => show win0_3.index t 0 * 1 + 1 * 0 = t.val / 4; rw [(index_w t).1]; omega
  | ⟨1, _⟩ => show win0_3.index t 1 * 2048 + 1 * s.val = s.val; rw [(index_w t).2.1]; omega
  | ⟨2, _⟩ => show win0_3.index t 2 * 512 + 1 * r.val = 512 * (t.val % 4) + r.val; rw [(index_w t).2.2]; omega

/-! ### The flattened arrays are the host's reshapes of the arguments -/

theorem V_q (c : Dev nD) : (V m c main_v0 : S32x2048x128.Idx → Elt F .f32)
    = shapeCast S32x2048x128 (m ((c : Thread nD τ).loc main_arg0)) shapeCasts_S2x16x2048x128_S32x2048x128 := by
  show StableHlo.after hostOps0 (fun b => m (c, b)) (Proc.devRef .tc main_v0) = _
  after_results
  rfl
theorem V_k (c : Dev nD) : (V m c main_v1 : S32x2048x128.Idx → Elt F .f32)
    = shapeCast S32x2048x128 (m ((c : Thread nD τ).loc main_arg1)) shapeCasts_S2x16x2048x128_S32x2048x128 := by
  show StableHlo.after hostOps0 (fun b => m (c, b)) (Proc.devRef .tc main_v1) = _
  after_results
  rfl
theorem V_v (c : Dev nD) : (V m c main_v2 : S32x2048x128.Idx → Elt F .f32)
    = shapeCast S32x2048x128 (m ((c : Thread nD τ).loc main_arg2)) shapeCasts_S2x16x2048x128_S32x2048x128 := by
  show StableHlo.after hostOps0 (fun b => m (c, b)) (Proc.devRef .tc main_v2) = _
  after_results
  rfl
theorem V_w (c : Dev nD) : (V m c main_v3 : S32x2048x2048.Idx → Elt F .f32)
    = shapeCast S32x2048x2048 (m ((c : Thread nD τ).loc main_arg3)) shapeCasts_S2x16x2048x2048_S32x2048x2048 := by
  show StableHlo.after hostOps0 (fun b => m (c, b)) (Proc.devRef .tc main_v3) = _
  after_results
  rfl

/-- Flattening (2, 16, 2048, 128) to (32, 2048, 128): entry `(16 p + h, a, b)` is the operand's entry `(p, h, a, b)`. -/
theorem flatten128_apply {α : Type} (x : S2x16x2048x128.Idx → α) (p : Fin 2) (h : Fin 16) (g : Fin 32) (hg : g.val = 16 * p.val + h.val)
    (a : Fin 2048) (b : Fin 128) :
    shapeCast S32x2048x128 x shapeCasts_S2x16x2048x128_S32x2048x128 (ix3 g a b) = x (ix4 p h a b) :=
  shapeCast_apply x _ _ _ (by
    rw [Shape.rowMajor_val_four, Shape.rowMajor_val_three]
    show ((p.val * 16 + h.val) * 2048 + a.val) * 128 + b.val = (g.val * 2048 + a.val) * 128 + b.val
    rw [hg]; omega)

/-- Flattening (2, 16, 2048, 2048) to (32, 2048, 2048), likewise. -/
theorem flatten2048_apply {α : Type} (x : S2x16x2048x2048.Idx → α) (p : Fin 2) (h : Fin 16) (g : Fin 32) (hg : g.val = 16 * p.val + h.val)
    (a : Fin 2048) (b : Fin 2048) :
    shapeCast S32x2048x2048 x shapeCasts_S2x16x2048x2048_S32x2048x2048 (ix3 g a b) = x (ix4 p h a b) :=
  shapeCast_apply x _ _ _ (by
    rw [Shape.rowMajor_val_four, Shape.rowMajor_val_three]
    show ((p.val * 16 + h.val) * 2048 + a.val) * 2048 + b.val = (g.val * 2048 + a.val) * 2048 + b.val
    rw [hg]; omega)

/-- Un-flattening (32, 2048, 128) to (2, 16, 2048, 128): entry `(p, h, a, b)` is the operand's entry `(16 p + h, a, b)`. -/
theorem unflatten128_apply {α : Type} (y : S32x2048x128.Idx → α) (p : Fin 2) (h : Fin 16) (g : Fin 32) (hg : g.val = 16 * p.val + h.val)
    (a : Fin 2048) (b : Fin 128) :
    shapeCast S2x16x2048x128 y shapeCasts_S32x2048x128_S2x16x2048x128 (ix4 p h a b) = y (ix3 g a b) :=
  shapeCast_apply y _ _ _ (by
    rw [Shape.rowMajor_val_four, Shape.rowMajor_val_three]
    show (g.val * 2048 + a.val) * 128 + b.val = ((p.val * 16 + h.val) * 2048 + a.val) * 128 + b.val
    rw [hg]; omega)

end Cert.KernelIdeal.Blocks

end
-- ==== Proof.FlatSpec.lean ====
/-
  The kernel's result on the flattened arrays, as one function of the arrays.

  The batch and head axes are flattened into one axis of extent 32.  With `Q`, `K`, `V` of shape 32 × 2048 × 128 and the
  mask `W` of shape 32 × 2048 × 2048, entry `(g, s, d)` of the result is the sum over the four key blocks `j` of

      ∑ r < 512, ((∑ e < 128, Q (g, s, e) · K (g, 512 j + r, e)) · W (g, s, 512 j + r)) · V (g, 512 j + r, d).
-/
import proofs.«114889_j39676907887182_2_alg».proof.KernelIdeal
import proofs.«114889_j39676907887182_2_alg».proof.Proof.SumBlocks
import Idealize.ShloMosaic.Lib.ValueIdx
import Idealize.ShloMosaic.PureOps.Ideal

noncomputable section

namespace Cert.KernelIdeal.FlatSpec

open Cert.KernelIdeal Idealize.ShloMosaic Idealize.ShloMosaic.ValueIdx Cert.AttnDrop

/-- Key block `j`'s contribution to entry `(g, s, d)`. -/
def blockFlat (Q K V : S32x2048x128.Idx → EReal) (W : S32x2048x2048.Idx → EReal) (g : Fin 32) (j : Fin 4)
    (s : Fin 2048) (d : Fin 128) : EReal :=
  ∑ r : Fin 512, ((∑ e : Fin 128, Q (ix3 g s e) * K (ix3 g (keyPos j r) e)) * W (ix3 g s (keyPos j r)))
    * V (ix3 g (keyPos j r) d)

/-- The whole result: the four key blocks' contributions added up. -/
def flatOut (Q K V : S32x2048x128.Idx → EReal) (W : S32x2048x2048.Idx → EReal) : S32x2048x128.Idx → EReal :=
  fun i => ∑ j : Fin 4, blockFlat Q K V W (i 0) j (i 1) (i 2)

/-- Adding the four contributions one after the other onto zero gives the result's entry. -/
theorem flatOut_eq_chain (Q K V : S32x2048x128.Idx → EReal) (W : S32x2048x2048.Idx → EReal) (g : Fin 32) (s : Fin 2048) (d : Fin 128) :
    (((0 + blockFlat Q K V W g 0 s d) + blockFlat Q K V W g 1 s d) + blockFlat Q K V W g 2 s d) + blockFlat Q K V W g 3 s d
      = flatOut Q K V W (ix3 g s d) :=
  acc_four (fun j => blockFlat Q K V W g j s d)

/-- The same entry as one sum over the whole key axis of 2048 positions. -/
theorem flatOut_eq_sum (Q K V : S32x2048x128.Idx → EReal) (W : S32x2048x2048.Idx → EReal) (g : Fin 32) (s : Fin 2048) (d : Fin 128) :
    flatOut Q K V W (ix3 g s d)
      = ∑ t : Fin 2048, ((∑ e : Fin 128, Q (ix3 g s e) * K (ix3 g t e)) * W (ix3 g s t)) * V (ix3 g t d) :=
  (sum_keyPos (fun t : Fin 2048 => ((∑ e : Fin 128, Q (ix3 g s e) * K (ix3 g t e)) * W (ix3 g s t)) * V (ix3 g t d))).symm

end Cert.KernelIdeal.FlatSpec

end
-- ==== Proof.OutputBlock.lean ====
/-
  The output block written back for one batch-head, entry by entry.

  The key-block axis is the grid's inner axis and has four positions, so the 128 grid points come in groups of four
  consecutive points `t₀, t₀+1, t₀+2, t₀+3` that share a batch-head `g`.  The accumulator is zeroed at `t₀`, each of the
  four points adds its key block's contribution, and the last one copies the accumulator into the output block.  So
  the output block written back at `t₀+3` is

      step(t₀+3, step(t₀+2, step(t₀+1, step(t₀, zero)))),

  and over the extended reals its entry `(s, d)` is `(((0 + c₀) + c₁) + c₂) + c₃` with `cⱼ` the contribution of key
  block `j` read off the flattened arrays — the sum of the four contributions.
-/
import proofs.«114889_j39676907887182_2_alg».proof.Proof.Gen.KernelIdeal.Frame
import proofs.«114889_j39676907887182_2_alg».proof.Proof.Pieces
import proofs.«114889_j39676907887182_2_alg».proof.Proof.BlockTerm
import proofs.«114889_j39676907887182_2_alg».proof.Proof.Blocks
import proofs.«114889_j39676907887182_2_alg».proof.Proof.FlatSpec

noncomputable section

open Idealize.ShloMosaic Idealize.ShloMosaic.TcCoe Idealize.SL.Sem

namespace Cert.KernelIdeal.OutputBlock

open Cert.KernelIdeal Cert.KernelIdeal.Gen Idealize.ShloMosaic.ValueIdx Cert.AttnDrop
open Cert.KernelIdeal.Pieces Cert.KernelIdeal.BlockValue Cert.KernelIdeal.Blocks Cert.KernelIdeal.FlatSpec

section AnyInstance

variable {F : FTy → Type} [FloatOps F]
variable (m : (ℓ : Loc nD τ sig) → Buf (Elt F) ℓ)

/-- The body's arithmetic at point `t`, on the blocks the windows hold there and an accumulator `acc`. -/
def stepAt (c : Dev nD) (t : Fin cfg0.N) (acc : Vec F S2048x128 .f32) : Vec F S2048x128 .f32 :=
  k0_pay2 (iblk m c 0 t) (iblk m c 1 t) (iblk m c 3 t) (iblk m c 2 t) acc

/-- What the buffers hold after a point depends on the point's position only. -/
theorem outsAt0_congr (c : Dev nD) {a b : ℕ} (ha : a < cfg0.N) (hb : b < cfg0.N) (h : a = b) :
    outsAt0 m c a ha = outsAt0 m c b hb := by
  subst h; rfl

/-- At a first key block the accumulator ends at the step on the zero block. -/
theorem acc_first (c : Dev nD) (t : Fin cfg0.N) (h0 : t.val % 4 = 0) :
    (outsAt0 m c t.val t.isLt).2 = stepAt m c t (k0_pay1 (F := F)) := by
  have h1 : ¬t.val % 4 = 3 := by omega
  unfold stepAt
  rw [outsAt0_A m c t h0 h1]
  dsimp only
  exact acc_A c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)

/-- At a middle key block it ends at the step on what the point before left. -/
theorem acc_middle (c : Dev nD) (t tp : Fin cfg0.N) (hp : t.val = tp.val + 1) (h0 : ¬t.val % 4 = 0) (h1 : ¬t.val % 4 = 3) :
    (outsAt0 m c t.val t.isLt).2 = stepAt m c t (outsAt0 m c tp.val tp.isLt).2 := by
  unfold stepAt
  rw [outsAt0_B m c t h0 h1, outsAt0_congr m c _ tp.isLt (show t.val - 1 = tp.val by omega)]
  dsimp only
  exact acc_B c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c tp.val tp.isLt).2

/-- At a last key block the output block is the accumulator after the step, with a leading unit axis. -/
theorem out_last (c : Dev nD) (t tp : Fin cfg0.N) (hp : t.val = tp.val + 1) (h1 : t.val % 4 = 3) :
    (outsAt0 m c t.val t.isLt).1 = k0_pay3 (stepAt m c t (outsAt0 m c tp.val tp.isLt).2) := by
  have h0 : ¬t.val % 4 = 0 := by omega
  unfold stepAt
  rw [outsAt0_C m c t h0 h1, outsAt0_congr m c _ tp.isLt (show t.val - 1 = tp.val by omega)]
  dsimp only
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c tp.val tp.isLt).2

/-- The output block written back at the last of four consecutive points of one batch-head: four steps from zero. -/
theorem out_four (c : Dev nD) (t0 t1 t2 t3 : Fin cfg0.N) (h0 : t0.val % 4 = 0) (h1 : t1.val = t0.val + 1)
    (h2 : t2.val = t1.val + 1) (h3 : t3.val = t2.val + 1) :
    (outsAt0 m c t3.val t3.isLt).1
      = k0_pay3 (stepAt m c t3 (stepAt m c t2 (stepAt m c t1 (stepAt m c t0 (k0_pay1 (F := F)))))) := by
  rw [out_last m c t3 t2 h3 (by omega), acc_middle m c t2 t1 h2 (by omega) (by omega),
    acc_middle m c t1 t0 h1 (by omega) (by omega), acc_first m c t0 h0]

end AnyInstance

section AtIdeal

variable (m : (ℓ : Loc nD τ sig) → Buf (Elt Ideal) ℓ)

/-- One step, entry by entry: the accumulator's entry plus the point's key block's contribution, read off the
    flattened arrays. -/
theorem stepAt_apply (c : Dev nD) (t : Fin cfg0.N) (acc : Vec Ideal S2048x128 .f32) (s : Fin 2048) (d : Fin 128) :
    stepAt m c t acc (ix2 s d) = acc (ix2 s d)
      + blockFlat (V m c main_v0 : S32x2048x128.Idx → EReal) (V m c main_v1 : S32x2048x128.Idx → EReal)
          (V m c main_v2 : S32x2048x128.Idx → EReal) (V m c main_v3 : S32x2048x2048.Idx → EReal) (headOf t) (blockOf t) s d := by
  unfold stepAt
  refine (pay2_apply (iblk m c 0 t) (iblk m c 1 t) (iblk m c 3 t) (iblk m c 2 t) acc s d).trans ?_
  refine congrArg (acc (ix2 s d) + ·) ?_
  unfold blockTerm blockFlat
  refine Finset.sum_congr rfl fun r _ => ?_
  exact congrArg₂ (· * ·) (congrArg₂ (· * ·) (Finset.sum_congr rfl fun e _ =>
    congrArg₂ (· * ·) (iblk_q m c t s e) (iblk_k m c t r e)) (iblk_w m c t s r)) (iblk_v m c t r d)

/-- The output block written back at the last of four consecutive points of batch-head `g`, entry by entry: the kernel's
    result on the flattened arrays at `(g, s, d)`. -/
theorem out_entry (c : Dev nD) (t0 t1 t2 t3 : Fin cfg0.N) (h0 : t0.val % 4 = 0) (h1 : t1.val = t0.val + 1)
    (h2 : t2.val = t1.val + 1) (h3 : t3.val = t2.val + 1) (s : Fin 2048) (d : Fin 128) :
    (outsAt0 m c t3.val t3.isLt).1 (ix3 (0 : Fin 1) s d)
      = flatOut (V m c main_v0 : S32x2048x128.Idx → EReal) (V m c main_v1 : S32x2048x128.Idx → EReal)
          (V m c main_v2 : S32x2048x128.Idx → EReal) (V m c main_v3 : S32x2048x2048.Idx → EReal) (ix3 (headOf t3) s d) := by
  have hN : cfg0.N = 128 := N_0
  have g0 : headOf t0 = headOf t3 := Fin.ext (by simp only [headOf_val]; omega)
  have g1 : headOf t1 = headOf t3 := Fin.ext (by simp only [headOf_val]; omega)
  have g2 : headOf t2 = headOf t3 := Fin.ext (by simp only [headOf_val]; omega)
  have j0 : blockOf t0 = 0 := Fin.ext (by simp only [blockOf_val]; omega)
  have j1 : blockOf t1 = 1 := Fin.ext (by simp only [blockOf_val]; show t1.val % 4 = 1; omega)
  have j2 : blockOf t2 = 2 := Fin.ext (by simp only [blockOf_val]; show t2.val % 4 = 2; omega)
  have j3 : blockOf t3 = 3 := Fin.ext (by simp only [blockOf_val]; show t3.val % 4 = 3; omega)
  rw [out_four m c t0 t1 t2 t3 h0 h1 h2 h3]
  refine (pay3_apply _ s d).trans ?_
  rw [stepAt_apply, stepAt_apply, stepAt_apply, stepAt_apply, pay1_apply, g0, g1, g2, j0, j1, j2, j3]
  exact flatOut_eq_chain _ _ _ _ (headOf t3) s d

end AtIdeal

end Cert.KernelIdeal.OutputBlock

end
-- ==== Proof.Result.lean ====
/-
  The kernel's result array after the run, and the program's result after the host's reshape.

  The output window's block for batch-head `g` is rows `(g, ·, ·)` of the flattened result array; it is written back once,
  at the last of the batch-head's four grid points, holding the kernel's result on the flattened arrays at those
  rows.  The 32 blocks tile the array (row `(g, s, d)` lies in the block written at point `4 g + 3`), so after the run
  the flattened result array holds that function everywhere.  The host then reshapes it from (32, 2048, 128) to
  (2, 16, 2048, 128), which is the program's result.
-/
import proofs.«114889_j39676907887182_2_alg».proof.Proof.Gen.KernelIdeal.Frame
import proofs.«114889_j39676907887182_2_alg».proof.Proof.OutputBlock
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.AttnDrop
open Cert.KernelIdeal.Blocks Cert.KernelIdeal.FlatSpec Cert.KernelIdeal.OutputBlock

variable (m : (ℓ : Loc nD τ sig) → Buf (Elt Ideal) ℓ) (ρ : Dev nD → PrngReg)

/-- The kernel's result on the flattened arrays as the region finds them. -/
def flat (c : Dev nD) : S32x2048x128.Idx → EReal :=
  flatOut (V m c main_v0 : S32x2048x128.Idx → EReal) (V m c main_v1 : S32x2048x128.Idx → EReal)
    (V m c main_v2 : S32x2048x128.Idx → EReal) (V m c main_v3 : S32x2048x2048.Idx → EReal)

/-- A block with a leading unit axis whose entries `(0, s, d)` are known is known everywhere. -/
theorem block_of_entries (X : S1x2048x128.Idx → EReal) (G : S32x2048x128.Idx → EReal) (g : Fin 32)
    (h : ∀ (s : Fin 2048) (d : Fin 128), X (ix3 (0 : Fin 1) s d) = G (ix3 g s d)) (y : S1x2048x128.Idx) :
    X y = G (ix3 g (y 1) (y 2)) := by
  have hy : y = ix3 (0 : Fin 1) (y 1) (y 2) := by
    funext a
    match a with
    | ⟨0, _⟩ =>
      have h0 : (y 0).val < 1 := (y 0).isLt
      exact Fin.ext (show (y 0).val = 0 by omega)
    | ⟨1, _⟩ => rfl
    | ⟨2, _⟩ => rfl
  rw [hy]
  exact h (y 1) (y 2)

/-- What a write-back point writes back is its block of the flattened result. -/
theorem flushed_eq (c : Dev nD) (t : Fin cfg0.N) (hf : (cfg0.win 4).flush t = true) :
    (dats m 0 c).flushed 4 t = ((cfg0.win 4).blk t).view.read (Elt Ideal) (flat m c) := by
  have h3 : t.val % 4 = 3 := (flush0_4 t).mp hf
  have hN : cfg0.N = 128 := N_0
  show (cfg0.win 4).cut (grid0.coords t) ((dats m 0 c).after 4 t) = _
  rw [after0_4]
  funext y
  rw [View.read_apply]
  have ht : t.val < 128 := lt_of_lt_of_eq t.isLt hN
  refine (block_of_entries (outsAt0 m c t.val t.isLt).1 (flat m c) (headOf t) (fun s d =>
    out_entry m c ⟨t.val - 3, by omega⟩ ⟨t.val - 2, by omega⟩ ⟨t.val - 1, by omega⟩ t
      (show (t.val - 3) % 4 = 0 by omega) (show t.val - 2 = t.val - 3 + 1 by omega)
      (show t.val - 1 = t.val - 2 + 1 by omega) (show t.val = t.val - 1 + 1 by omega) s d) y).trans ?_
  refine congrArg (flat m c) (funext fun a => Fin.ext ?_)
  match a with
  | ⟨0, _⟩ =>
    show t.val / 4 = win0_4.index t 0 * 1 + 1 * (y 0).val
    have hy : (y 0).val < 1 := (y 0).isLt
    rw [(index_o t).1]; omega
  | ⟨1, _⟩ =>
    show (y 1).val = win0_4.index t 1 * 2048 + 1 * (y 1).val
    rw [(index_o t).2.1]; omega
  | ⟨2, _⟩ =>
    show (y 2).val = win0_4.index t 2 * 128 + 1 * (y 2).val
    rw [(index_o t).2.2]; omega

/-- An index of the flattened result array lies in point `t`'s block iff each coordinate lies in the block's range. -/
theorem mem_blk (t : Fin cfg0.N) (i : S32x2048x128.Idx) :
    i ∈ ((cfg0.win 4).blk t).view.set ↔ ∀ a : Fin 3, win0_4.index t a * S1x2048x128.size a ≤ (i a).val
      ∧ (i a).val < win0_4.index t a * S1x2048x128.size a + S1x2048x128.size a := by
  show i ∈ ((View.whole main_v4).slice (win0_4.rect t)).set ↔ _
  rw [View.set_slice_whole, Rect.mem_set_unit]
  exact Iff.rfl

/-- Every index of the flattened result array lies in the block written back at the last point of its batch-head. -/
theorem covered (i : S32x2048x128.Idx) :
    ∃ t : Fin cfg0.N, (cfg0.win 4).flush t = true ∧ i ∈ ((cfg0.win 4).blk t).view.set := by
  have hN : cfg0.N = 128 := N_0
  have hi0 : (i 0).val < 32 := (i 0).isLt
  have hi1 : (i 1).val < 2048 := (i 1).isLt
  have hi2 : (i 2).val < 128 := (i 2).isLt
  obtain ⟨t, ht⟩ : ∃ t : Fin cfg0.N, t.val = 4 * (i 0).val + 3 := ⟨⟨4 * (i 0).val + 3, by omega⟩, rfl⟩
  refine ⟨t, (flush0_4 t).mpr (by omega), ?_⟩
  rw [mem_blk]
  intro a
  match a with
  | ⟨0, _⟩ =>
    show win0_4.index t 0 * 1 ≤ (i 0).val ∧ (i 0).val < win0_4.index t 0 * 1 + 1
    rw [(index_o t).1]; omega
  | ⟨1, _⟩ =>
    show win0_4.index t 1 * 2048 ≤ (i 1).val ∧ (i 1).val < win0_4.index t 1 * 2048 + 2048
    rw [(index_o t).2.1]; omega
  | ⟨2, _⟩ =>
    show win0_4.index t 2 * 128 ≤ (i 2).val ∧ (i 2).val < win0_4.index t 2 * 128 + 128
    rw [(index_o t).2.2]; omega

/-- After the run the flattened result array holds the kernel's result on the flattened arrays. -/
theorem final (c : Dev nD) : (dats m 0 c).arrAt 4 cfg0.N = flat m c :=
  (dats m 0 c).arrAt_eq_of_cover 4 (flat m c) (flushed_eq m c) covered

/-- The program's result: the host's reshape of the flattened result array. -/
def result (c : Dev nD) : S2x16x2048x128.Idx → EReal :=
  shapeCast S2x16x2048x128 (flat m c) shapeCasts_S32x2048x128_S2x16x2048x128

/-- What the host operation after the region leaves in the program's result buffer. -/
theorem tail_result (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = flat m c :=
    (Pipeline.withArrays_arr spec0 launch0.win.arr_inj c _ _ 4).trans (final m c)
  rw [e]
  rfl

/-- The kernel program's run, read: its result buffer ends at the reshaped flattened result, its arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Bridge.lean ====
/-
  The kernel's result and the reference's result are one function of the four arguments.

  With `q, k, v` of shape (2, 16, 2048, 128) and the mask `w` of shape (2, 16, 2048, 2048), both programs compute, at
  `(p, h, s, d)`,

      ∑ t < 2048, ((∑ e < 128, q (p, h, s, e) · k (p, h, t, e)) · w (p, h, s, t)) · v (p, h, t, d).

  The reference states it directly: two batched products with an entrywise product between them.  The kernel
  flattens `(p, h)` to `g = 16 p + h`, sums the key axis as four blocks of 512 added one after the other onto zero, and
  un-flattens; regrouping the sum and reading the reshapes at an index gives the same expression.  Only the
  commutative-monoid laws of addition on the extended reals are used, so no finiteness of the inputs is needed.
-/
import proofs.«114889_j39676907887182_2_alg».proof.Proof.Result
import proofs.«114889_j39676907887182_2_alg».proof.Proof.Gen.ReferenceIdeal.Read

noncomputable section

open Idealize.ShloMosaic Idealize.ShloMosaic.TcCoe Idealize.SL.Sem

namespace Cert.Bridge

open Idealize.ShloMosaic.ValueIdx Cert.AttnDrop
open Cert.KernelIdeal Cert.KernelIdeal.Gen Cert.KernelIdeal.Blocks Cert.KernelIdeal.FlatSpec

/-- The kernel's program as one function of the four arguments: flatten, the blocked sum, un-flatten. -/
def kernelFn (q k v : S2x16x2048x128.Idx → EReal) (w : S2x16x2048x2048.Idx → EReal) : S2x16x2048x128.Idx → EReal :=
  shapeCast S2x16x2048x128
    (flatOut (shapeCast S32x2048x128 q shapeCasts_S2x16x2048x128_S32x2048x128)
      (shapeCast S32x2048x128 k shapeCasts_S2x16x2048x128_S32x2048x128)
      (shapeCast S32x2048x128 v shapeCasts_S2x16x2048x128_S32x2048x128)
      (shapeCast S32x2048x2048 w shapeCasts_S2x16x2048x2048_S32x2048x2048))
    shapeCasts_S32x2048x128_S2x16x2048x128

/-- The kernel's function at `(p, h, s, d)`: one sum over the whole key axis. -/
theorem kernelFn_apply (q k v : S2x16x2048x128.Idx → EReal) (w : S2x16x2048x2048.Idx → EReal)
    (p : Fin 2) (h : Fin 16) (s : Fin 2048) (d : Fin 128) :
    kernelFn q k v w (ix4 p h s d)
      = ∑ t : Fin 2048, ((∑ e : Fin 128, q (ix4 p h s e) * k (ix4 p h t e)) * w (ix4 p h s t)) * v (ix4 p h t d) := by
  have hg : ((⟨16 * p.val + h.val, by omega⟩ : Fin 32)).val = 16 * p.val + h.val := rfl
  unfold kernelFn
  rw [unflatten128_apply _ p h ⟨16 * p.val + h.val, by omega⟩ hg s d, flatOut_eq_sum]
  refine Finset.sum_congr rfl fun t _ => ?_
  rw [flatten128_apply v p h _ hg t d, flatten2048_apply w p h _ hg s t]
  refine congrArg (· * v (ix4 p h t d)) (congrArg (· * w (ix4 p h s t)) (Finset.sum_congr rfl fun e _ => ?_))
  rw [flatten128_apply q p h _ hg s e, flatten128_apply k p h _ hg t e]

/-- The reference's result at `(p, h, s, d)`: the same sum. -/
theorem ref_apply (q k v : S2x16x2048x128.Idx → EReal) (w : S2x16x2048x2048.Idx → EReal)
    (p : Fin 2) (h : Fin 16) (s : Fin 2048) (d : Fin 128) :
    Cert.ReferenceIdeal.Read.val_main_v2 (F := Ideal) q k v w (ix4 p h s d)
      = ∑ t : Fin 2048, ((∑ e : Fin 128, q (ix4 p h s e) * k (ix4 p h t e)) * w (ix4 p h s t)) * v (ix4 p h t d) := by
  rw [Cert.ReferenceIdeal.Read.val_main_v2_apply]
  refine Finset.sum_congr rfl fun t _ => ?_
  have e2l : Cert.ReferenceIdeal.Read.lidx_main_v2 (ix4 p h s d) t = ix4 p h s t :=
    funext fun a => by match a with | ⟨0, _⟩ => rfl | ⟨1, _⟩ => rfl | ⟨2, _⟩ => rfl | ⟨3, _⟩ => rfl
  have e2r : Cert.ReferenceIdeal.Read.ridx_main_v2 (ix4 p h s d) t = ix4 p h t d :=
    funext fun a => by match a with | ⟨0, _⟩ => rfl | ⟨1, _⟩ => rfl | ⟨2, _⟩ => rfl | ⟨3, _⟩ => rfl
  rw [e2l, e2r, Cert.ReferenceIdeal.Read.val_main_v1_apply, Cert.ReferenceIdeal.Read.val_main_v0_apply]
  have e0l : ∀ e : Fin 128, Cert.ReferenceIdeal.Read.lidx_main_v0 (ix4 p h s t) e = ix4 p h s e := fun e =>
    funext fun a => by match a with | ⟨0, _⟩ => rfl | ⟨1, _⟩ => rfl | ⟨2, _⟩ => rfl | ⟨3, _⟩ => rfl
  have e0r : ∀ e : Fin 128, Cert.ReferenceIdeal.Read.ridx_main_v0 (ix4 p h s t) e = ix4 p h t e := fun e =>
    funext fun a => by match a with | ⟨0, _⟩ => rfl | ⟨1, _⟩ => rfl | ⟨2, _⟩ => rfl | ⟨3, _⟩ => rfl
  simp only [e0l, e0r]
  rfl

/-- The two programs compute one function of the arguments. -/
theorem kernelFn_eq_ref (q k v : S2x16x2048x128.Idx → EReal) (w : S2x16x2048x2048.Idx → EReal) :
    kernelFn q k v w = Cert.ReferenceIdeal.Read.val_main_v2 (F := Ideal) q k v w := by
  funext i
  obtain ⟨p, h, s, d, rfl⟩ : ∃ (p : Fin 2) (h : Fin 16) (s : Fin 2048) (d : Fin 128), i = ix4 p h s d :=
    ⟨i 0, i 1, i 2, i 3, eq_ix4 i⟩
  exact (kernelFn_apply q k v w p h s d).trans (ref_apply q k v w p h s d).symm

/-- The kernel program's result buffer holds the kernel's function of the argument arrays. -/
theorem result_eq (m : (ℓ : Loc nD τ sig) → Buf (Elt Ideal) ℓ) (c : Dev nD) :
    Cert.KernelIdeal.Result.result m c
      = kernelFn (m ((c : Thread nD τ).loc main_arg0)) (m ((c : Thread nD τ).loc main_arg1))
          (m ((c : Thread nD τ).loc main_arg2)) (m ((c : Thread nD τ).loc main_arg3)) := by
  unfold Cert.KernelIdeal.Result.result Cert.KernelIdeal.Result.flat kernelFn
  rw [V_q, V_k, V_v, V_w]

end Cert.Bridge

end
-- ==== Proof.lean ====
/-
  The certificate's claim: an attention product with a multiplicative dropout mask and no softmax,

      out (p, h, s, d) = ∑ t < 2048, ((∑ e < 128, q (p, h, s, e) · k (p, h, t, e)) · w (p, h, s, t)) · v (p, h, t, d),

  computed by a kernel that flattens (batch, head) to one axis of 32, walks the key axis in four blocks of 512 and
  adds each block's contribution onto an accumulator zeroed at the first block, against the reference's two batched
  products with an entrywise product between them.

  The three frames: the kernel (word level and idealized) terminates without a fault and leaves its arguments
  unchanged, and so does the reference, whose run is a straight line of three host operations.  The idealization
  rewrote nothing.  At the ideal instance the two programs end with equal results: the kernel's result array is read
  block by block off its run (`Result`), the reference's off its run, and the two are one function of the arguments
  (`Bridge`): the sum over the key axis regrouped into four blocks, which needs only that addition on the extended
  reals is commutative and associative with unit zero — the inputs' finiteness is never used.
-/
import proofs.«114889_j39676907887182_2_alg».proof.Defs
import proofs.«114889_j39676907887182_2_alg».proof.Proof.Gen.Kernel
import proofs.«114889_j39676907887182_2_alg».proof.Proof.Gen.Kernel.Skeleton
import proofs.«114889_j39676907887182_2_alg».proof.Proof.Gen.Kernel.Launch
import proofs.«114889_j39676907887182_2_alg».proof.Proof.Gen.Kernel.Points
import proofs.«114889_j39676907887182_2_alg».proof.Proof.Gen.Kernel.Frame
import proofs.«114889_j39676907887182_2_alg».proof.Proof.Gen.KernelIdeal
import proofs.«114889_j39676907887182_2_alg».proof.Proof.Gen.KernelIdeal.Skeleton
import proofs.«114889_j39676907887182_2_alg».proof.Proof.Gen.KernelIdeal.Launch
import proofs.«114889_j39676907887182_2_alg».proof.Proof.Gen.KernelIdeal.Points
import proofs.«114889_j39676907887182_2_alg».proof.Proof.Gen.KernelIdeal.Frame
import proofs.«114889_j39676907887182_2_alg».proof.Proof.Gen.ReferenceIdeal
import proofs.«114889_j39676907887182_2_alg».proof.Proof.Gen.Pre_finite_inputs
import proofs.«114889_j39676907887182_2_alg».proof.Proof.Gen.ReferenceIdeal.Run
import proofs.«114889_j39676907887182_2_alg».proof.Proof.Gen.ReferenceIdeal.Read
import proofs.«114889_j39676907887182_2_alg».proof.Proof.SumBlocks
import proofs.«114889_j39676907887182_2_alg».proof.Proof.Result
import proofs.«114889_j39676907887182_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories that agree on the arguments, both programs end with the same result: the
    kernel's result buffer holds the kernel's function of the arguments, the reference's holds its composed term, and
    the two are one function. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v2_eq]
  show _ = Cert.KernelIdeal.Result.result m c
  rw [Cert.Bridge.result_eq]
  exact (Cert.Bridge.kernelFn_eq_ref _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
